-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16384x1024 : Shape := ⟨2, ![16384, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S4096x1024 .f32) (main_arg1 : FVec F S16384x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S4096x1024 : Shape := ⟨2, ![4096, 1024]⟩
abbrev S16384x1024 : Shape := ⟨2, ![16384, 1024]⟩
abbrev S4096x16384 : Shape := ⟨2, ![4096, 16384]⟩
abbrev S1024x1024 : Shape := ⟨2, ![1024, 1024]⟩
abbrev S2048x1024 : Shape := ⟨2, ![2048, 1024]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S4096x1024, .bf16⟩
  | .hbm, ⟨3, _⟩ => ⟨S16384x1024, .bf16⟩
  | .hbm, ⟨4, _⟩ => ⟨S4096x16384, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S1024x1024_S1024 : S1024x1024.Reduces [1] S1024
  shapeCasts_S1024_S1024x1 : S1024.ShapeCasts S1024x1
  reduces_S2048x1024_S2048 : S2048x1024.Reduces [1] S2048
  shapeCasts_S2048_S1x2048 : S2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .bf16 = 32 ∨ (Rect.block (s := S16384x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x16384.size a
  hwx0_2 : ∀ i : grid0.Coords, EltTy.bits .f32 = 32 ∨ (Rect.block (s := S4096x16384) S1024x2048.size (cc0_transform_2 i) (hinb0_2 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S16384x1024 : Shape := ⟨2, ![16384, 1024]⟩
abbrev S_ : Shape := ⟨0, ![]⟩
abbrev S4096 : Shape := ⟨1, ![4096]⟩
abbrev S4096x1 : Shape := ⟨2, ![4096, 1]⟩
abbrev S16384 : Shape := ⟨1, ![16384]⟩
abbrev S4096x16384 : Shape := ⟨2, ![4096, 16384]⟩
abbrev S1x16384 : Shape := ⟨2, ![1, 16384]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S4096x16384, .f32⟩
  | .hbm, ⟨10, _⟩ => ⟨S1x16384, .f32⟩
  | .hbm, ⟨11, _⟩ => ⟨S4096x16384, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S4096x16384, .f32⟩
  | .hbm, ⟨18, _⟩ => ⟨S_, .f32⟩
  | .hbm, ⟨19, _⟩ => ⟨S4096x16384, .f32⟩
  | .hbm, ⟨20, _⟩ => ⟨S4096x16384, .f32⟩
  | .hbm, ⟨21, _⟩ => ⟨S4096x16384, .f32⟩
  | .hbm, ⟨22, _⟩ => ⟨S_, .f32⟩
  | .hbm, ⟨23, _⟩ => ⟨S4096x16384, .f32⟩
  | .hbm, ⟨24, _⟩ => ⟨S4096x16384, .f32⟩
  | .hbm, ⟨25, _⟩ => ⟨S4096x16384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  reducesTo_S16384x1024_S16384_d1 : S16384x1024.ReducesTo [1] S16384
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S4096x1024_S16384x1024_S4096x16384_1_1_0_0_n_n_wf : DotDims.WF S4096x1024 S16384x1024 S4096x16384 [1] [1] [0] [0] [] []

variable [Facts₀]

def dot_S4096x1024_S16384x1024_S4096x16384_1_1_0_0_n_n : DotDims S4096x1024 S16384x1024 S4096x16384 where
  lhsContracting := [1]
  rhsContracting := [1]
  lhsNonContracting := [0]
  rhsNonContracting := [0]
  lhsBatch := []
  rhsBatch := []
  wf := dot_S4096x1024_S16384x1024_S4096x16384_1_1_0_0_n_n_wf

class Facts : Prop extends Facts₀ where

variable [Facts]
-- ==== Proof.Spec.lean ====
/-
  The Gaussian similarity matrix of two families of 1024-dimensional row vectors, over the extended reals.

  For `X : [4096, 1024]` and `T : [16384, 1024]` the entry at row `b`, column `n` is

      exp ( −max (‖X_b‖² + ‖T_n‖² − 2·⟨X_b, T_n⟩, 0) / 2 ),

  with `‖X_b‖² = ∑ₖ X[b,k]²` and `⟨X_b, T_n⟩ = ∑ₖ X[b,k]·T[n,k]`: the squared distance `‖X_b − T_n‖²` expanded by
  the polarization identity, clamped below at zero, halved and negated under the exponential (width σ = 1).
  The entry depends on row `b` of `X` and row `n` of `T` only, and on those only through three sums over the
  shared axis; `gauss` is the scalar function of the three sums, `entry` puts the sums in, and `matrix` is the
  whole array, index by index.

  The expression is kept exactly as both programs associate it — `(sx + st) − 2·cr`, then the maximum with zero,
  the negation, the quotient by two, the exponential — so no law of the extended reals that could fail at an
  infinity (distributivity, cancellation) is ever used: the only identities needed are `0 − d = −d` and
  `0 + s = s`, which hold for every extended real.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The float literal `2.0` as the extended real its word denotes; it occurs twice (the factor of the inner
    product and the divisor) and is the same word in both programs, so it is never evaluated. -/
abbrev two : EReal := Ideal.ofBits .f32 0x40000000#32

/-- The scalar function: from the two squared norms `sx`, `st` and the inner product `cr`,
    `exp (−max (sx + st − 2·cr, 0) / 2)`. -/
def gauss (sx st cr : EReal) : EReal :=
  Ideal.exp (Ideal.div (-(max (sx + st - two * cr) 0)) two)

/-- The same function with the negation spelt as a subtraction from the zero word and the clamp taken against the
    zero word: `0 − d = −d` on the extended reals. -/
theorem gauss_of_zero_sub (sx st cr : EReal) :
    Ideal.exp (Ideal.div (Ideal.ofBits .f32 0x00000000#32
        - max (sx + st - two * cr) (Ideal.ofBits .f32 0x00000000#32)) two) = gauss sx st cr := by
  rw [Ideal.ofBits_zero_f32, zero_sub]
  rfl

/-- The same function with each squared norm a sum started from the zero word, the negation a negation and the
    clamp taken against the zero word: `0 + s = s`. -/
theorem gauss_of_zero_add (sx st cr : EReal) :
    Ideal.exp (Ideal.div (-(max ((Ideal.ofBits .f32 0x00000000#32 + sx) + (Ideal.ofBits .f32 0x00000000#32 + st)
        - two * cr) (Ideal.ofBits .f32 0x00000000#32))) two) = gauss sx st cr := by
  rw [Ideal.ofBits_zero_f32, zero_add, zero_add]
  rfl

/-- Entry `(b, n)` of the similarity matrix: `gauss` of the squared norm of row `b` of `X`, the squared norm of
    row `n` of `T`, and their inner product. -/
def entry (X : (⟨2, ![4096, 1024]⟩ : Shape).Idx → EReal) (T : (⟨2, ![16384, 1024]⟩ : Shape).Idx → EReal)
    (b : Fin 4096) (n : Fin 16384) : EReal :=
  gauss (∑ k : Fin 1024, X (ix2 b k) * X (ix2 b k)) (∑ k : Fin 1024, T (ix2 n k) * T (ix2 n k))
    (∑ k : Fin 1024, X (ix2 b k) * T (ix2 n k))

/-- The similarity matrix as one function of the two arrays, index by index. -/
def matrix (X : (⟨2, ![4096, 1024]⟩ : Shape).Idx → EReal) (T : (⟨2, ![16384, 1024]⟩ : Shape).Idx → EReal) :
    (⟨2, ![4096, 16384]⟩ : Shape).Idx → EReal :=
  fun i => entry X T (i 0) (i 1)

theorem matrix_apply (X : (⟨2, ![4096, 1024]⟩ : Shape).Idx → EReal) (T : (⟨2, ![16384, 1024]⟩ : Shape).Idx → EReal)
    (b : Fin 4096) (n : Fin 16384) : matrix X T (ix2 b n) = entry X T b n := rfl

end Cert.Rbf

end
-- ==== Proof.BlockValue.lean ====
/-
  What the kernel body computes on one pair of blocks, read at an index of the output block.

  At a grid point the body holds a block `x` of 1024 rows of the first array and a block `t` of 2048 rows of the
  second, both 1024 wide. It forms
    · the squared norm of every row of `x` (a sum along the lanes), kept as a column and copied along the columns,
    · the squared norm of every row of `t`, laid as a row and copied along the rows,
    · the product `x · tᵀ` accumulated onto zero (the sum over the shared axis of `x[p,k]·t[q,k]`),
  and from these, entry by entry, `exp ((0 − max ((sx + st) − 2·cr, 0)) / 2)`.
  Read at `(p, q)`: the first piece is `∑ₖ x[p,k]²` whatever `q`, the second `∑ₖ t[q,k]²` whatever `p`, the third
  `∑ₖ x[p,k]·t[q,k]`; a change of float format is the identity on extended reals, so the rows squared are the
  rows of the blocks themselves. Hence the body's value at `(p, q)` is `gauss` of these three sums
  (`0 − d = −d`: `gauss_of_zero_sub`).
-/
import proofs.«123741_j83451214561454_1_alg».proof.Proof.Gen.KernelIdeal.Skeleton
import proofs.«123741_j83451214561454_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## Two layout steps of a kept-dimension row sum -/

/-- A length-`a` vector cast to a column `[a, 1]` reads, at `(p, u)`, the vector at `p`. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` copied along `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The three pieces -/

/-- The squared norms of the rows of the first block, copied along the output block's columns. -/
def rowNorms (x : FVec Ideal S1024x1024 .bf16) : FVec Ideal S1024x2048 .f32 :=
  broadcastTo S1024x2048
    (shapeCast S1024x1
      (multiReduction .add [1] S1024
        (mulf (extf .f32 (shapeCast S1024x1024 x shapeCasts_S1024x1024_S1024x1024) bitsLt_bf16_f32)
          (extf .f32 (shapeCast S1024x1024 x shapeCasts_S1024x1024_S1024x1024) bitsLt_bf16_f32))
        0x00000000#32 reduces_S1024x1024_S1024 (.inl rfl) rfl)
      shapeCasts_S1024_S1024x1)
    broadcasts_S1024x1_S1024x2048

/-- The squared norms of the rows of the second block, laid as a row and copied along the output block's rows. -/
def colNorms (t : FVec Ideal S2048x1024 .bf16) : FVec Ideal S1024x2048 .f32 :=
  broadcastTo S1024x2048
    (shapeCast S1x2048
      (multiReduction .add [1] S2048
        (mulf (extf .f32 (shapeCast S2048x1024 t shapeCasts_S2048x1024_S2048x1024) bitsLt_bf16_f32)
          (extf .f32 (shapeCast S2048x1024 t shapeCasts_S2048x1024_S2048x1024) bitsLt_bf16_f32))
        0x00000000#32 reduces_S2048x1024_S2048 (.inl rfl) rfl)
      shapeCasts_S2048_S1x2048)
    broadcasts_S1x2048_S1024x2048

/-- The product of the first block with the transpose of the second, accumulated onto zero. -/
def blockProduct (x : FVec Ideal S1024x1024 .bf16) (t : FVec Ideal S2048x1024 .bf16) : FVec Ideal S1024x2048 .f32 :=
  matmul dot_S1024x1024_S2048x1024_S1024x2048_1_1_0_0_n_n none (shapeCast S1024x1024 x shapeCasts_S1024x1024_S1024x1024 : FVec Ideal S1024x1024 .bf16)
    (shapeCast S2048x1024 t shapeCasts_S2048x1024_S2048x1024 : FVec Ideal S2048x1024 .bf16) (constant S1024x2048 .f32 0x00000000#32)

/-- The first piece at `(p, q)`: the sum of the squares of row `p` of the first block. -/
theorem rowNorms_apply (x : FVec Ideal S1024x1024 .bf16) (p : Fin 1024) (q : Fin 2048) :
    rowNorms x (ix2 p q) = ∑ k : Fin 1024, x (ix2 p k) * x (ix2 p k) := by
  unfold rowNorms
  refine (broadcastTo_a1_ab_apply _ broadcasts_S1024x1_S1024x2048 p q).trans ?_
  refine (shapeCast_a_a1_apply _ shapeCasts_S1024_S1024x1 p (0 : Fin 1)).trans ?_
  refine (Ideal.multiReduction_add_single _ 0x00000000#32 reduces_S1024x1024_S1024 (.inl rfl) rfl (ix1 p)).trans ?_
  refine Finset.sum_congr rfl fun k _ => ?_
  have e : reduces_S1024x1024_S1024.lift (ix1 p) k = ix2 p k :=
    funext fun a => Fin.ext (by match a with | ⟨0, _⟩ => rfl | ⟨1, _⟩ => rfl)
  rw [e, shapeCast_self]
  rfl

/-- The second piece at `(p, q)`: the sum of the squares of row `q` of the second block. -/
theorem colNorms_apply (t : FVec Ideal S2048x1024 .bf16) (p : Fin 1024) (q : Fin 2048) :
    colNorms t (ix2 p q) = ∑ k : Fin 1024, t (ix2 q k) * t (ix2 q k) := by
  unfold colNorms
  refine (broadcastTo_1b_ab_apply _ broadcasts_S1x2048_S1024x2048 p q).trans ?_
  refine (shapeCast_a_1a_apply _ shapeCasts_S2048_S1x2048 (0 : Fin 1) q).trans ?_
  refine (Ideal.multiReduction_add_single _ 0x00000000#32 reduces_S2048x1024_S2048 (.inl rfl) rfl (ix1 q)).trans ?_
  refine Finset.sum_congr rfl fun k _ => ?_
  have e : reduces_S2048x1024_S2048.lift (ix1 q) k = ix2 q k :=
    funext fun a => Fin.ext (by match a with | ⟨0, _⟩ => rfl | ⟨1, _⟩ => rfl)
  rw [e, shapeCast_self]
  rfl

/-- The product's row coordinate of its left operand is the output's row … -/
theorem lhs_row (i : S1024x2048.Idx) (κ : dot_S1024x1024_S2048x1024_S1024x2048_1_1_0_0_n_n.contr.Idx) : (dot_S1024x1024_S2048x1024_S1024x2048_1_1_0_0_n_n.lhsIdx i κ 0).val = (i 0).val := by
  unfold DotDims.lhsIdx
  rw [dif_neg (show ¬(0 : Fin S1024x1024.rank) ∈ dot_S1024x1024_S2048x1024_S1024x2048_1_1_0_0_n_n.lhsBatch by decide),
    dif_pos (show (0 : Fin S1024x1024.rank) ∈ dot_S1024x1024_S2048x1024_S1024x2048_1_1_0_0_n_n.lhsNonContracting by decide)]
  rfl

/-- … and the row coordinate of its right operand is the output's column. -/
theorem rhs_row (i : S1024x2048.Idx) (κ : dot_S1024x1024_S2048x1024_S1024x2048_1_1_0_0_n_n.contr.Idx) : (dot_S1024x1024_S2048x1024_S1024x2048_1_1_0_0_n_n.rhsIdx i κ 0).val = (i 1).val := by
  unfold DotDims.rhsIdx
  rw [dif_neg (show ¬(0 : Fin S2048x1024.rank) ∈ dot_S1024x1024_S2048x1024_S1024x2048_1_1_0_0_n_n.rhsBatch by decide),
    dif_pos (show (0 : Fin S2048x1024.rank) ∈ dot_S1024x1024_S2048x1024_S1024x2048_1_1_0_0_n_n.rhsNonContracting by decide)]
  rfl

/-- The third piece at `(p, q)`: the inner product of row `p` of the first block with row `q` of the second. -/
theorem blockProduct_apply (x : FVec Ideal S1024x1024 .bf16) (t : FVec Ideal S2048x1024 .bf16) (p : Fin 1024) (q : Fin 2048) :
    blockProduct x t (ix2 p q) = ∑ k : Fin 1024, x (ix2 p k) * t (ix2 q k) := by
  unfold blockProduct
  refine (Ideal.matmul_constant_zero_apply dot_S1024x1024_S2048x1024_S1024x2048_1_1_0_0_n_n none _ _ (ix2 p q)).trans ?_
  rw [shapeCast_self, shapeCast_self, ← Equiv.sum_comp (contrEquiv1 dot_S1024x1024_S2048x1024_S1024x2048_1_1_0_0_n_n 1024 rfl rfl).symm]
  refine Finset.sum_congr rfl fun k _ => ?_
  have hk := contrEquiv1_symm_val dot_S1024x1024_S2048x1024_S1024x2048_1_1_0_0_n_n 1024 rfl rfl k
  have el : dot_S1024x1024_S2048x1024_S1024x2048_1_1_0_0_n_n.lhsIdx (ix2 p q) ((contrEquiv1 dot_S1024x1024_S2048x1024_S1024x2048_1_1_0_0_n_n 1024 rfl rfl).symm k) = ix2 p k :=
    funext fun a => Fin.ext (by
      match a with
      | ⟨0, _⟩ => exact lhs_row _ _
      | ⟨1, _⟩ => exact (dot_S1024x1024_S2048x1024_S1024x2048_1_1_0_0_n_n.lhsIdx_val_of_single rfl _ _).trans hk)
  have er : dot_S1024x1024_S2048x1024_S1024x2048_1_1_0_0_n_n.rhsIdx (ix2 p q) ((contrEquiv1 dot_S1024x1024_S2048x1024_S1024x2048_1_1_0_0_n_n 1024 rfl rfl).symm k) = ix2 q k :=
    funext fun a => Fin.ext (by
      match a with
      | ⟨0, _⟩ => exact rhs_row _ _
      | ⟨1, _⟩ => exact (dot_S1024x1024_S2048x1024_S1024x2048_1_1_0_0_n_n.rhsIdx_val_of_single rfl _ _).trans hk)
  rw [el, er]

/-! ## The body's value -/

/-- The body's stored value is the entrywise expression of the three pieces. -/
theorem payload_eq (x : FVec Ideal S1024x1024 .bf16) (t : FVec Ideal S2048x1024 .bf16) (i : S1024x2048.Idx) :
    k0_pay1 (F := Ideal) x t i
      = Ideal.exp (Ideal.div (Ideal.ofBits .f32 0x00000000#32
          - max (rowNorms x i + colNorms t i - Cert.Rbf.two * blockProduct x t i) (Ideal.ofBits .f32 0x00000000#32))
          Cert.Rbf.two) := rfl

/-- The body's stored value at `(p, q)` is `gauss` of the squared norms of row `p` of the first block and of row
    `q` of the second and of their inner product. -/
theorem payload_apply (x : FVec Ideal S1024x1024 .bf16) (t : FVec Ideal S2048x1024 .bf16) (p : Fin 1024) (q : Fin 2048) :
    k0_pay1 (F := Ideal) x t (ix2 p q)
      = Cert.Rbf.gauss (∑ k : Fin 1024, x (ix2 p k) * x (ix2 p k)) (∑ k : Fin 1024, t (ix2 q k) * t (ix2 q k))
          (∑ k : Fin 1024, x (ix2 p k) * t (ix2 q k)) := by
  rw [payload_eq, rowNorms_apply, colNorms_apply, blockProduct_apply]
  exact Cert.Rbf.gauss_of_zero_sub _ _ _

end Cert.KernelIdeal.Block

end
-- ==== Proof.ArrayValue.lean ====
/-
  From blocks to the whole array: after the kernel's run its result array is the similarity matrix of its two
  arguments.

  The grid has 4 × 8 points. At the point with coordinates `(g, h)` the body is given rows
  `1024·g … 1024·g + 1023` of the first array and rows `2048·h … 2048·h + 2047` of the second, and what it leaves
  is written back as the block of the result with rows `1024·g …` and columns `2048·h …`. The two arrays the
  blocks are cut from are the arguments themselves: the program narrows them to a shorter float format before the
  call, and a change of float format is the identity on extended reals.

  Entry `(p, q)` of the block left at that point is `gauss` of the squared norms of row `p` of the first block and
  row `q` of the second and of their inner product — that is, of rows `1024·g + p` of the first argument and
  `2048·h + q` of the second: entry `(1024·g + p, 2048·h + q)` of the similarity matrix. So every point writes back
  a block of ONE function of the arguments, the 32 blocks tile the result (row `r`, column `s` lies in the block of
  the point `(r / 1024, s / 2048)`), and the result array ends as that function.
-/
import proofs.«123741_j83451214561454_1_alg».proof.Proof.Gen.KernelIdeal.Value
import proofs.«123741_j83451214561454_1_alg».proof.Proof.BlockValue
import proofs.«123741_j83451214561454_1_alg».proof.Proof.Spec
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays the blocks are cut from are the arguments -/

/-- The array the first window stages is the first argument: narrowing the float format changes no extended real. -/
theorem staged_x (c : Dev nD) :
    (V m c main_v0 : S4096x1024.Idx → EReal) = (m ((c : Thread nD τ).loc main_arg0) : S4096x1024.Idx → EReal) := by
  dsimp only [V, hostOps0]
  after_results
  rfl

/-- The array the second window stages is the second argument. -/
theorem staged_t (c : Dev nD) :
    (V m c main_v1 : S16384x1024.Idx → EReal) = (m ((c : Thread nD τ).loc main_arg1) : S16384x1024.Idx → EReal) := by
  dsimp only [V, hostOps0]
  after_results
  rfl

/-! ## Where each window's block sits -/

/-- Over the 32 grid points: the first window's block row is the output's block row, the second window's block row
    is the output's block column, neither input is cut along the shared axis, and the output's block coordinates
    stay within 4 × 8. -/
theorem block_positions : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 7 :=
  (by decide +kernel : ∀ t : Fin grid0.N, _)

/-- Every block of the 4 × 8 tiling of the result is some point's. -/
theorem block_onto : ∀ (g : Fin 4) (h : Fin 8), ∃ t : Fin cfg0.N, win0_2.index t = ![g.val, h.val] :=
  (by decide +kernel : ∀ (g : Fin 4) (h : Fin 8), ∃ t : Fin grid0.N, win0_2.index t = ![g.val, h.val])

/-- Row `y 0` of the first window's block at point `t` is row `1024·g + y 0` of the first argument, `g` the
    output's block row. -/
theorem xblock_apply (c : Dev nD) (t : Fin cfg0.N) (y : S1024x1024.Idx) (k : S4096x1024.Idx)
    (hk0 : (k 0).val = win0_2.index t (0 : Fin 2) * 1024 + (y 0).val) (hk1 : (k 1).val = (y 1).val) :
    (iblk m c 0 t : FVec Ideal S1024x1024 .bf16) y
      = (m ((c : Thread nD τ).loc main_arg0) : S4096x1024.Idx → EReal) k := by
  obtain ⟨e0, e1, -⟩ := block_positions t
  unfold iblk
  rw [View.read_apply]
  show (V m c main_v0 : S4096x1024.Idx → EReal) _ = _
  rw [staged_x]
  refine congrArg _ (funext fun a => Fin.ext ?_)
  match a with
  | ⟨0, _⟩ => show win0_0.index t (0 : Fin 2) * 1024 + 1 * (y 0).val = (k 0).val; rw [hk0, e0]; omega
  | ⟨1, _⟩ => show win0_0.index t (1 : Fin 2) * 1024 + 1 * (y 1).val = (k 1).val; rw [hk1, e1]; omega

/-- Row `y 0` of the second window's block at point `t` is row `2048·h + y 0` of the second argument, `h` the
    output's block column. -/
theorem tblock_apply (c : Dev nD) (t : Fin cfg0.N) (y : S2048x1024.Idx) (k : S16384x1024.Idx)
    (hk0 : (k 0).val = win0_2.index t (1 : Fin 2) * 2048 + (y 0).val) (hk1 : (k 1).val = (y 1).val) :
    (iblk m c 1 t : FVec Ideal S2048x1024 .bf16) y
      = (m ((c : Thread nD τ).loc main_arg1) : S16384x1024.Idx → EReal) k := by
  obtain ⟨-, -, e2, e3, -⟩ := block_positions t
  unfold iblk
  rw [View.read_apply]
  show (V m c main_v1 : S16384x1024.Idx → EReal) _ = _
  rw [staged_t]
  refine congrArg _ (funext fun a => Fin.ext ?_)
  match a with
  | ⟨0, _⟩ => show win0_1.index t (0 : Fin 2) * 2048 + 1 * (y 0).val = (k 0).val; rw [hk0, e2]; omega
  | ⟨1, _⟩ => show win0_1.index t (1 : Fin 2) * 1024 + 1 * (y 1).val = (k 1).val; rw [hk1, e3]; omega

/-! ## What a point writes back -/

/-- What point `t` writes back is block `t` of the similarity matrix of the arguments. -/
theorem flushed_eq (c : Dev nD) (t : Fin cfg0.N) :
    (dats m 0 c).flushed 2 t = ((cfg0.win 2).blk t).view.read (Elt Ideal)
      (Cert.Rbf.matrix (m ((c : Thread nD τ).loc main_arg0)) (m ((c : Thread nD τ).loc main_arg1))) := by
  rw [Cert.KernelIdeal.Value.flushed2]
  unfold out0_2
  rw [View.canon_unit_zero zero_offsets]
  simp only [View.ld_unit_zero (S := S1024x1024) zero_offsets, View.ld_unit_zero (S := S2048x1024) zero_offsets]
  funext j
  obtain ⟨p, q, rfl⟩ : ∃ (p : Fin 1024) (q : Fin 2048), j = ix2 p q := ⟨j 0, j 1, eq_ix2 j⟩
  obtain ⟨-, -, -, -, b0, b1⟩ := block_positions t
  have hp : p.val < 1024 := p.isLt
  have hq : q.val < 2048 := q.isLt
  let r : Fin 4096 := ⟨win0_2.index t (0 : Fin 2) * 1024 + p.val, by omega⟩
  let s : Fin 16384 := ⟨win0_2.index t (1 : Fin 2) * 2048 + q.val, by omega⟩
  have hemb : ((cfg0.win 2).blk t).view.emb (ix2 p q) = ix2 r s := funext fun a => Fin.ext (by
    match a with
    | ⟨0, _⟩ => show win0_2.index t (0 : Fin 2) * 1024 + 1 * p.val = win0_2.index t (0 : Fin 2) * 1024 + p.val; omega
    | ⟨1, _⟩ => show win0_2.index t (1 : Fin 2) * 2048 + 1 * q.val = win0_2.index t (1 : Fin 2) * 2048 + q.val; omega)
  show k0_pay1 (F := Ideal) (iblk m c 0 t) (iblk m c 1 t) (ix2 p q)
    = Cert.Rbf.matrix (m ((c : Thread nD τ).loc main_arg0)) (m ((c : Thread nD τ).loc main_arg1))
        (((cfg0.win 2).blk t).view.emb (ix2 p q))
  rw [hemb, Cert.Rbf.matrix_apply]
  refine (Cert.KernelIdeal.Block.payload_apply (iblk m c 0 t) (iblk m c 1 t) p q).trans ?_
  have hx : ∀ k : Fin 1024, (iblk m c 0 t : FVec Ideal S1024x1024 .bf16) (ix2 p k)
      = (m ((c : Thread nD τ).loc main_arg0) : S4096x1024.Idx → EReal) (ix2 r k) :=
    fun k => xblock_apply m c t (ix2 p k) (ix2 r k) rfl rfl
  have ht : ∀ k : Fin 1024, (iblk m c 1 t : FVec Ideal S2048x1024 .bf16) (ix2 q k)
      = (m ((c : Thread nD τ).loc main_arg1) : S16384x1024.Idx → EReal) (ix2 s k) :=
    fun k => tblock_apply m c t (ix2 q k) (ix2 s k) rfl rfl
  unfold Cert.Rbf.entry
  simp only [hx, ht]

/-! ## The blocks tile the result -/

/-- An index of the result is in point `t`'s block iff each coordinate is in the block's range on its axis. -/
theorem mem_block (t : Fin cfg0.N) (i : S4096x16384.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v2).slice (win0_2.rect t)).set ↔ _
  rw [View.set_slice_whole, Rect.mem_set_unit]
  exact Iff.rfl

/-- Every index `(r, s)` of the result lies in the block of the point whose block coordinates are
    `(r / 1024, s / 2048)`, and every point writes its block back. -/
theorem covered (i : S4096x16384.Idx) :
    ∃ t : Fin cfg0.N, (cfg0.win 2).flush t = true ∧ i ∈ ((cfg0.win 2).blk t).view.set := by
  have hi0 : (i 0).val < 4096 := (i 0).isLt
  have hi1 : (i 1).val < 16384 := (i 1).isLt
  obtain ⟨t, ht⟩ := block_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-! ## The result array, and the run -/

/-- After the run the result array is the similarity matrix of the arguments. -/
theorem result_eq (c : Dev nD) : (dats m 0 c).arrAt 2 cfg0.N
    = Cert.Rbf.matrix (m ((c : Thread nD τ).loc main_arg0)) (m ((c : Thread nD τ).loc main_arg1)) :=
  (dats m 0 c).arrAt_eq_of_cover 2 _ (fun t _ => flushed_eq m c t) covered

/-- Every weakly fair execution of the kernel's program terminates with the result array at the similarity matrix of
    the arguments and the arguments unchanged. -/
theorem run : θ_run defs (onTc (τ := τ) (main (F := Ideal))) ⟨m, fun _ => 0, ρ⟩ fun r => ∀ c : Dev nD,
      r.2.mem ((c : Thread nD τ).loc main_v2)
        = Cert.Rbf.matrix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.KernelIdeal.Whole

end
-- ==== Proof.RefValue.lean ====
/-
  The reference program's result, read index by index, is the similarity matrix of its two arguments.

  The reference computes the row sums of squares of each argument (a sum over the shared axis started from the
  zero word), broadcasts one along the columns and the other along the rows, subtracts twice the matrix product
  `X · Tᵀ` (the sum over the shared axis of `X[b,k]·T[n,k]`), clamps at zero, negates, divides by two and applies
  the exponential. Reading its last stage at the index `(b, n)` and following each broadcast back to the
  coordinate it copies, the three sums are those of row `b` of `X` and row `n` of `T`, and the scalar
  expression around them is `gauss` with each norm's sum started from zero (`gauss_of_zero_add`).
-/
import proofs.«123741_j83451214561454_1_alg».proof.Proof.Gen.ReferenceIdeal.Read
import proofs.«123741_j83451214561454_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- The reference's result stage at `(b, n)` is `entry X T b n`: the broadcasts of the two norm vectors read
    coordinate `b`, respectively `n`, and the product's operand indices at `(b, n)` and `k` are `(b, k)` and
    `(n, k)`. -/
theorem val_eq_matrix (x0 : (⟨S4096x1024, .f32⟩ : BufTy).Contents (Elt Ideal))
    (x1 : (⟨S16384x1024, .f32⟩ : BufTy).Contents (Elt Ideal)) :
    val_main_v18 (F := Ideal) x0 x1 = Cert.Rbf.matrix x0 x1 := by
  funext i
  obtain ⟨b, n, rfl⟩ : ∃ (b : Fin 4096) (n : Fin 16384), i = ix2 b n := ⟨i 0, i 1, eq_ix2 i⟩
  rw [Cert.Rbf.matrix_apply]
  have ex : ∀ k : Fin 1024, idx_main_v1 (idx_main_v2 (idx_main_v7 (ix2 b n))) k = ix2 b k := fun k =>
    funext fun a => Fin.ext (by match a with | ⟨0, _⟩ => rfl | ⟨1, _⟩ => rfl)
  have et : ∀ k : Fin 1024, idx_main_v4 (idx_main_v6 (idx_main_v8 (ix2 b n))) k = ix2 n k := fun k =>
    funext fun a => Fin.ext (by match a with | ⟨0, _⟩ => rfl | ⟨1, _⟩ => rfl)
  have el : ∀ k : Fin 1024, lidx_main_v5 (ix2 b n) k = ix2 b k := fun k =>
    funext fun a => Fin.ext (by match a with | ⟨0, _⟩ => rfl | ⟨1, _⟩ => rfl)
  have er : ∀ k : Fin 1024, ridx_main_v5 (ix2 b n) k = ix2 n k := fun k =>
    funext fun a => Fin.ext (by match a with | ⟨0, _⟩ => rfl | ⟨1, _⟩ => rfl)
  rw [val_main_v18_apply, val_main_v17_apply, val_main_v16_apply, val_main_cst_3_apply, val_main_v15_apply,
    val_main_v14_apply, val_main_v13_apply, val_main_cst_2_apply, val_main_v12_apply, val_main_v11_apply,
    val_main_v10_apply, val_main_cst_1_apply, val_main_v5_apply, val_main_v9_apply, val_main_v8_apply,
    val_main_v7_apply, val_main_v6_apply, val_main_v4_apply, val_main_v2_apply, val_main_v1_apply,
    val_main_cst_apply, val_main_cst_0_apply]
  simp only [val_main_v0_apply, val_main_v3_apply, ex, et, el, er, Ideal.hostUnary_exp_def, Ideal.hostDivf_def,
    Ideal.hostNegf_def, Ideal.negf_def, Ideal.maximumf_def, Ideal.subf_def, Ideal.addf_def, Ideal.mulf_def,
    Ideal.ofBits_def]
  exact Cert.Rbf.gauss_of_zero_add _ _ _

end Cert.ReferenceIdeal.RefValue

end
-- ==== Proof.lean ====
/-
  A Gaussian similarity kernel against its plain reference, over the extended reals.

  Both programs take `X : [4096, 1024]` and `T : [16384, 1024]` and return the `[4096, 16384]` matrix whose entry
  `(b, n)` is `exp (−max (‖X_b‖² + ‖T_n‖² − 2·⟨X_b, T_n⟩, 0) / 2)` (Proof/Spec.lean, `Cert.Rbf.matrix`).
  The kernel computes it block by block on a 4 × 8 grid, from 1024 rows of `X` and 2048 rows of `T` at a time
  (Proof/BlockValue.lean: one block's entries; Proof/ArrayValue.lean: the blocks tile the result); the reference
  computes it in one piece (Proof/RefValue.lean). Read at exact arithmetic the two differ only in spelling — the
  kernel narrows its inputs to a shorter float format first (the identity on extended reals), writes the negation
  as `0 − d`, and sums each row's squares from nothing where the reference starts the sum at zero — so both end at
  the same function of the arguments. No step uses that the inputs are finite.

  The three frames are the programs' runs with the results forgotten; the idealized kernel is the kernel's own
  text (no rewrite to account for), so that conjunct is trivial.
-/
import proofs.«123741_j83451214561454_1_alg».proof.Defs
import proofs.«123741_j83451214561454_1_alg».proof.Proof.Gen.Kernel
import proofs.«123741_j83451214561454_1_alg».proof.Proof.Gen.Kernel.Skeleton
import proofs.«123741_j83451214561454_1_alg».proof.Proof.Gen.Kernel.Launch
import proofs.«123741_j83451214561454_1_alg».proof.Proof.Gen.Kernel.Points
import proofs.«123741_j83451214561454_1_alg».proof.Proof.Gen.Kernel.Frame
import proofs.«123741_j83451214561454_1_alg».proof.Proof.Gen.KernelIdeal
import proofs.«123741_j83451214561454_1_alg».proof.Proof.Gen.KernelIdeal.Skeleton
import proofs.«123741_j83451214561454_1_alg».proof.Proof.Gen.KernelIdeal.Launch
import proofs.«123741_j83451214561454_1_alg».proof.Proof.Gen.KernelIdeal.Points
import proofs.«123741_j83451214561454_1_alg».proof.Proof.Gen.KernelIdeal.Frame
import proofs.«123741_j83451214561454_1_alg».proof.Proof.Gen.ReferenceIdeal
import proofs.«123741_j83451214561454_1_alg».proof.Proof.Gen.Pre_finite_inputs
import proofs.«123741_j83451214561454_1_alg».proof.Proof.Gen.KernelIdeal.Value
import proofs.«123741_j83451214561454_1_alg».proof.Proof.Gen.ReferenceIdeal.Run
import proofs.«123741_j83451214561454_1_alg».proof.Proof.Gen.ReferenceIdeal.Read
import proofs.«123741_j83451214561454_1_alg».proof.Proof.ArrayValue
import proofs.«123741_j83451214561454_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at exact arithmetic. -/
theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to exact arithmetic: nothing to account for. -/
theorem preserves : Cert.preserves_Kernel_KernelIdeal := trivial

/-- From memories that agree on the arguments, the kernel's result array and the reference's both end at the
    similarity matrix of the arguments. -/
theorem algebraic : Cert.algebraic_KernelIdeal_ReferenceIdeal := by
  intro m ρ m' ρ' _ hagree
  refine ⟨fun c => Cert.Rbf.matrix (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.val_eq_matrix, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
